-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S1024x512 : Shape := ⟨2, ![1024, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn {F : FTy → Type} [FloatOps F] (main_arg0 : FVec F S131072x512 .f32) (main_arg1 : FVec F S1024x512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  main_v8
-- ==== Kernel.lean ====
abbrev S131072x512 : Shape := ⟨2, ![131072, 512]⟩
abbrev S1024x512 : Shape := ⟨2, ![1024, 512]⟩
abbrev S131072x1024 : Shape := ⟨2, ![131072, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S131072x512, .f32⟩
  | .hbm, ⟨1, _⟩ => ⟨S1024x512, .f32⟩
  | .hbm, ⟨2, _⟩ => ⟨S131072x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x1024, .f32⟩
  | .local _ .vmem, ⟨4, _⟩ => ⟨S1024x1024, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  reduces_S1024x512_S1024 : S1024x512.Reduces [1] S1024
  shapeCasts_S1024_S1024x1 : S1024.ShapeCasts S1024x1
  broadcasts_S1024x1_S1024x1024 : S1024x1.Broadcasts S1024x1024
  shapeCasts_S1024_S1x1024 : S1024.ShapeCasts S1x1024
  broadcasts_S1x1024_S1024x1024 : S1x1024.Broadcasts S1024x1024
  reduces_S1024x1024_S1024 : S1024x1024.Reduces [1] S1024
  inb_S1024x1024_S1024x1024_0_0 : ∀ a, (![0, 0] : Fin 2 → Nat) a + S1024x1024.size a ≤ S1024x1024.size a
  h_S1024x1024 : 0 < S1024x1024.numel
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S131072x512.size a
  hwx0_0 : ∀ i : grid0.Coords, EltTy.bits .f32 = 32 ∨ (Rect.block (s := S131072x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S131072x1024.size a
  hwx0_2 : ∀ i : grid0.Coords, EltTy.bits .f32 = 32 ∨ (Rect.block (s := S131072x1024) S1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x512 : Shape := ⟨2, ![131072, 512]⟩
abbrev S1024x512 : Shape := ⟨2, ![1024, 512]⟩
abbrev S_ : Shape := ⟨0, ![]⟩
abbrev S131072 : Shape := ⟨1, ![131072]⟩
abbrev S131072x1 : Shape := ⟨2, ![131072, 1]⟩
abbrev S1024 : Shape := ⟨1, ![1024]⟩
abbrev S131072x1024 : Shape := ⟨2, ![131072, 1024]⟩
abbrev S1x1024 : Shape := ⟨2, ![1, 1024]⟩

abbrev nBuf : Space → Nat
  | .hbm => 35
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S1024x512, .f32⟩
  | .hbm, ⟨2, _⟩ => ⟨S131072x512, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S1024x512, .f32⟩
  | .hbm, ⟨7, _⟩ => ⟨S_, .f32⟩
  | .hbm, ⟨8, _⟩ => ⟨S1024, .f32⟩
  | .hbm, ⟨9, _⟩ => ⟨S131072x1024, .f32⟩
  | .hbm, ⟨10, _⟩ => ⟨S_, .f32⟩
  | .hbm, ⟨11, _⟩ => ⟨S131072x1024, .f32⟩
  | .hbm, ⟨12, _⟩ => ⟨S131072x1024, .f32⟩
  | .hbm, ⟨13, _⟩ => ⟨S131072x1024, .f32⟩
  | .hbm, ⟨14, _⟩ => ⟨S131072x1024, .f32⟩
  | .hbm, ⟨15, _⟩ => ⟨S1x1024, .f32⟩
  | .hbm, ⟨16, _⟩ => ⟨S131072x1024, .f32⟩
  | .hbm, ⟨17, _⟩ => ⟨S131072x1024, .f32⟩
  | .hbm, ⟨18, _⟩ => ⟨S_, .f32⟩
  | .hbm, ⟨19, _⟩ => ⟨S131072x1024, .f32⟩
  | .hbm, ⟨20, _⟩ => ⟨S131072x1024, .f32⟩
  | .hbm, ⟨21, _⟩ => ⟨S_, .f32⟩
  | .hbm, ⟨22, _⟩ => ⟨S131072x1024, .f32⟩
  | .hbm, ⟨23, _⟩ => ⟨S131072x1024, .f32⟩
  | .hbm, ⟨24, _⟩ => ⟨S_, .f32⟩
  | .hbm, ⟨25, _⟩ => ⟨S131072x1024, .f32⟩
  | .hbm, ⟨26, _⟩ => ⟨S131072x1024, .f32⟩
  | .hbm, ⟨27, _⟩ => ⟨S_, .f32⟩
  | .hbm, ⟨28, _⟩ => ⟨S131072x1024, .f32⟩
  | .hbm, ⟨29, _⟩ => ⟨S131072x1024, .f32⟩
  | .hbm, ⟨30, _⟩ => ⟨S_, .f32⟩
  | .hbm, ⟨31, _⟩ => ⟨S131072, .f32⟩
  | .hbm, ⟨32, _⟩ => ⟨S131072x1, .f32⟩
  | .hbm, ⟨33, _⟩ => ⟨S131072x1024, .f32⟩
  | .hbm, ⟨34, _⟩ => ⟨S131072x1024, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  reducesTo_S131072x512_S131072_d1 : S131072x512.ReducesTo [1] S131072
  h_S_ : 0 < S_.numel
  bcast_S131072_S131072x1_0 : S131072.BroadcastsInDim S131072x1 (![0] : Fin 1 → Fin S131072x1.rank)
  reducesTo_S1024x512_S1024_d1 : S1024x512.ReducesTo [1] S1024
  bcast_S_S131072x1024 : S_.BroadcastsInDim S131072x1024 (![] : Fin 0 → Fin S131072x1024.rank)
  bcast_S131072x1_S131072x1024_0_1 : S131072x1.BroadcastsInDim S131072x1024 (![0, 1] : Fin 2 → Fin S131072x1024.rank)
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  reducesTo_S131072x1024_S131072_d1 : S131072x1024.ReducesTo [1] S131072
  dot_S131072x512_S1024x512_S131072x1024_1_1_0_0_n_n_wf : DotDims.WF S131072x512 S1024x512 S131072x1024 [1] [1] [0] [0] [] []

variable [Facts₀]

def dot_S131072x512_S1024x512_S131072x1024_1_1_0_0_n_n : DotDims S131072x512 S1024x512 S131072x1024 where
  lhsContracting := [1]
  rhsContracting := [1]
  lhsNonContracting := [0]
  rhsNonContracting := [0]
  lhsBatch := []
  rhsBatch := []
  wf := dot_S131072x512_S1024x512_S131072x1024_1_1_0_0_n_n_wf

class Facts : Prop extends Facts₀ where

variable [Facts]
-- ==== Proof.Spec.lean ====
/-
  Soft cluster assignment with a Student-t kernel, as one function on the extended reals.

  A data row `z` (512 entries) is compared with each of 1024 centroids `c k` (512 entries each):

    dist z k    = (Σ_d z_d² − 2 · Σ_d z_d · c_{k,d}) + Σ_d c_{k,d}²      the squared distance, expanded
    weight z k  = 1 / (1 + dist z k / 1)                                  the Student-t kernel, one degree of freedom
    assign z k  = weight z k / Σ_j weight z j                             each row normalised to sum 1

  Every operation is the extended reals' own (`Ideal.div` for the quotients), and the three literals stay the
  words the programs spell (2.0, 1.0), so nothing here depends on the inputs being finite: a row's entry is one
  fixed expression in that row and the centroids, whatever they are.

  With one degree of freedom the kernel's exponent (1 + 1)/2 is 1. One of the two programs compared drops the
  power, the other applies it; `pow_one` is the law that makes them agree: on the extended reals a power with
  exponent 1 is the identity — at ⊥ and ⊤ by the power's corner cases, on a real `r` because `r ^ 1 = r`
  (true of the real power function for every `r`, negative ones included).
-/
import Idealize.ShloMosaic.PureOps.Ideal
import Idealize.ShloMosaic.PureOps.Ideal.Laws
import Idealize.ShloMosaic.Lib.ValueIdx

noncomputable section

open scoped BigOperators

namespace Cert.SoftAssign

open Idealize.ShloMosaic Idealize.ShloMosaic.ValueIdx

/-- The centroid array: 1024 centroids of 512 entries. -/
abbrev Centroids : Type := (⟨2, ![1024, 512]⟩ : Shape).Idx → EReal
/-- One data row. -/
abbrev Row : Type := Fin 512 → EReal

/-- The word both programs spell for 1.0. -/
def one : EReal := Ideal.ofBits .f32 0x3F800000#32
/-- The word both programs spell for 2.0. -/
def two : EReal := Ideal.ofBits .f32 0x40000000#32

/-- Row `n` of an array of `N` rows of 512 entries (the data array, one block of it, or the centroid array). -/
def rowOf {N : Nat} (A : (⟨2, ![N, 512]⟩ : Shape).Idx → EReal) (n : Fin N) : Row := fun d => A (ix2 n d)

/-- Σ_d z_d². -/
def sqNorm (z : Row) : EReal := ∑ d : Fin 512, z d * z d
/-- Σ_d z_d · c_{k,d}. -/
def cross (z : Row) (C : Centroids) (k : Fin 1024) : EReal := ∑ d : Fin 512, z d * C (ix2 k d)
/-- The squared distance from `z` to centroid `k`, in its expanded form and in the order both programs add it. -/
def dist (z : Row) (C : Centroids) (k : Fin 1024) : EReal :=
  (sqNorm z - two * cross z C k) + sqNorm (rowOf C k)
/-- The Student-t kernel of that distance. -/
def weight (z : Row) (C : Centroids) (k : Fin 1024) : EReal :=
  Ideal.div one (one + Ideal.div (dist z C k) one)
/-- The row's normaliser. -/
def total (z : Row) (C : Centroids) : EReal := ∑ j : Fin 1024, weight z C j
/-- The soft assignment of row `z` to centroid `k`. -/
def assign (z : Row) (C : Centroids) (k : Fin 1024) : EReal := Ideal.div (weight z C k) (total z C)

/-- The assignment array of an array of `N` data rows: entry (n, k) is row n's assignment to centroid k. Rows do
    not interact, so the assignment array of a block of rows is that block of the whole assignment array. -/
def assignAll {N : Nat} (Z : (⟨2, ![N, 512]⟩ : Shape).Idx → EReal) (C : Centroids) :
    (⟨2, ![N, 1024]⟩ : Shape).Idx → EReal :=
  fun i => assign (rowOf Z ⟨(i 0).val, idx2_lt0 i⟩) C ⟨(i 1).val, idx2_lt1 i⟩

theorem assignAll_apply {N : Nat} (Z : (⟨2, ![N, 512]⟩ : Shape).Idx → EReal) (C : Centroids) (n : Fin N) (k : Fin 1024) :
    assignAll Z C (ix2 n k) = assign (rowOf Z n) C k := rfl

/-- ROWS DO NOT INTERACT. Entry `y` of the assignment array of a block `X` of 1024 rows is entry `i` of the assignment
    array of the whole data array `Z`, as soon as the block's row at `y` is the array's row at `i`, the centroids
    are the same, and the two entries are in the same column. -/
theorem assignAll_block {N : Nat} (Z : (⟨2, ![N, 512]⟩ : Shape).Idx → EReal) (X : (⟨2, ![1024, 512]⟩ : Shape).Idx → EReal)
    (C C' : Centroids) (y : (⟨2, ![1024, 1024]⟩ : Shape).Idx) (i : (⟨2, ![N, 1024]⟩ : Shape).Idx)
    (hrow : ∀ d : Fin 512, X (ix2 (⟨(y 0).val, idx2_lt0 y⟩ : Fin 1024) d) = Z (ix2 (⟨(i 0).val, idx2_lt0 i⟩ : Fin N) d))
    (hC : ∀ (k : Fin 1024) (d : Fin 512), C' (ix2 k d) = C (ix2 k d))
    (hcol : (y 1).val = (i 1).val) :
    assignAll X C' y = assignAll Z C i := by
  have eC : C' = C := funext fun a =>
    (congrArg C' (eq_ix2 a)).trans ((hC _ _).trans (congrArg C (eq_ix2 a)).symm)
  have eR : rowOf X (⟨(y 0).val, idx2_lt0 y⟩ : Fin 1024) = rowOf Z (⟨(i 0).val, idx2_lt0 i⟩ : Fin N) := funext hrow
  have eK : (⟨(y 1).val, idx2_lt1 y⟩ : Fin 1024) = ⟨(i 1).val, idx2_lt1 i⟩ := Fin.ext hcol
  show assign (rowOf X ⟨(y 0).val, idx2_lt0 y⟩) C' ⟨(y 1).val, idx2_lt1 y⟩
      = assign (rowOf Z ⟨(i 0).val, idx2_lt0 i⟩) C ⟨(i 1).val, idx2_lt1 i⟩
  rw [eR, eC, eK]

/-- The word for 1.0 denotes the real number 1. -/
theorem one_eq : one = ((1 : ℝ) : EReal) := by
  unfold one
  simp [Ideal.ofBits, Ideal.ieee, -EReal.coe_mul]
  norm_num

/-- A power with the real exponent 1 is the identity on every extended real. -/
theorem pow_real_one (x : EReal) : Ideal.pow x ((1 : ℝ) : EReal) = x := by
  induction x using EReal.rec with
  | bot => rfl
  | top =>
    rw [Ideal.pow_top, if_pos (by exact_mod_cast (one_pos : (0 : ℝ) < 1))]
  | coe r =>
    show ((Real.rpow r 1 : ℝ) : EReal) = (r : EReal)
    exact congrArg _ (Real.rpow_one r)

/-- So is a power by the word for 1.0. -/
theorem pow_one (x : EReal) : Ideal.pow x one = x := by
  rw [one_eq]; exact pow_real_one x

end Cert.SoftAssign

end
-- ==== Proof.Reference.lean ====
/-
  The reference program computes the specification.

  Read one operation at a time at an entry (n, k) of the result, the reference forms: the row's sum of squares
  (started from the zero word, so `0 + Σ`), the centroid's sum of squares likewise, the contraction
  Σ_d z_{n,d} · c_{k,d}, the expanded squared distance, the Student-t weight 1 / (1 + dist / 1), that weight
  RAISED TO THE POWER 1, the row's sum of the powers (again `0 + Σ`), and the quotient. Two facts turn this
  into the specification's `assign`: `0 + x = x`, and a power with exponent 1 is the identity on the extended
  reals (`pow_one`). Neither needs the inputs to be finite.
-/
import proofs.«155967_j49924699848825_1_alg».proof.Proof.Gen.ReferenceIdeal.Read
import proofs.«155967_j49924699848825_1_alg».proof.Proof.Spec

noncomputable section

open scoped BigOperators

namespace Cert.SoftAssign.Reference

open Idealize.ShloMosaic Idealize.ShloMosaic.ValueIdx
open Cert.ReferenceIdeal Cert.ReferenceIdeal.Read Cert.SoftAssign

variable (Z : (⟨S131072x512, .f32⟩ : BufTy).Contents (Elt Ideal)) (C : (⟨S1024x512, .f32⟩ : BufTy).Contents (Elt Ideal))

/-- The row's sum of squares, kept as a column and spread over the columns, at (n, k): Σ_d z_{n,d}². -/
theorem rowNorm_apply (n : Fin 131072) (k : Fin 1024) :
    val_main_v8 (F := Ideal) Z (ix2 n k) = sqNorm (rowOf Z n) := by
  rw [val_main_v8_apply, val_main_v2_apply, val_main_v1_apply]
  show Ideal.ofBits .f32 0x00000000#32 + _ = _
  rw [Ideal.ofBits_zero_f32, zero_add]
  refine Finset.sum_congr rfl fun d _ => ?_
  have e : idx_main_v1 (idx_main_v2 (idx_main_v8 (ix2 n k))) d = ix2 n d :=
    funext fun a => by match a with | ⟨0, _⟩ => rfl | ⟨1, _⟩ => rfl
  rw [e]
  rfl

/-- The centroid's sum of squares, kept as a row and spread over the rows, at (n, k): Σ_d c_{k,d}². -/
theorem centroidNorm_apply (n : Fin 131072) (k : Fin 1024) :
    val_main_v11 (F := Ideal) C (ix2 n k) = sqNorm (rowOf C k) := by
  rw [val_main_v11_apply, val_main_v10_apply, val_main_v4_apply]
  show Ideal.ofBits .f32 0x00000000#32 + _ = _
  rw [Ideal.ofBits_zero_f32, zero_add]
  refine Finset.sum_congr rfl fun d _ => ?_
  have e : idx_main_v4 (idx_main_v10 (idx_main_v11 (ix2 n k))) d = ix2 k d :=
    funext fun a => by match a with | ⟨0, _⟩ => rfl | ⟨1, _⟩ => rfl
  rw [e]
  rfl

/-- The contraction at (n, k): Σ_d z_{n,d} · c_{k,d}. -/
theorem cross_apply (n : Fin 131072) (k : Fin 1024) :
    val_main_v5 (F := Ideal) Z C (ix2 n k) = cross (rowOf Z n) C k := by
  rw [val_main_v5_apply]
  refine Finset.sum_congr rfl fun d _ => ?_
  have el : lidx_main_v5 (ix2 n k) d = ix2 n d :=
    funext fun a => by match a with | ⟨0, _⟩ => rfl | ⟨1, _⟩ => rfl
  have er : ridx_main_v5 (ix2 n k) d = ix2 k d :=
    funext fun a => by match a with | ⟨0, _⟩ => rfl | ⟨1, _⟩ => rfl
  rw [el, er]
  rfl

/-- The expanded squared distance at (n, k). -/
theorem dist_apply (n : Fin 131072) (k : Fin 1024) :
    val_main_v12 (F := Ideal) Z C (ix2 n k) = dist (rowOf Z n) C k := by
  rw [val_main_v12_apply, val_main_v9_apply, val_main_v7_apply, val_main_v6_apply,
    rowNorm_apply, centroidNorm_apply, cross_apply]
  rfl

/-- The Student-t weight at (n, k). -/
theorem weight_apply (n : Fin 131072) (k : Fin 1024) :
    val_main_v18 (F := Ideal) Z C (ix2 n k) = weight (rowOf Z n) C k := by
  rw [val_main_v18_apply, val_main_v17_apply, val_main_v16_apply, val_main_v15_apply, val_main_v14_apply,
    val_main_v13_apply, dist_apply]
  rfl

/-- The weight raised to the power 1 is the weight. -/
theorem powered_apply (n : Fin 131072) (k : Fin 1024) :
    val_main_v20 (F := Ideal) Z C (ix2 n k) = weight (rowOf Z n) C k := by
  rw [val_main_v20_apply, val_main_v19_apply, weight_apply]
  exact pow_one _

/-- The row's normaliser, kept as a column and spread over the columns, at (n, k). -/
theorem total_apply (n : Fin 131072) (k : Fin 1024) :
    val_main_v23 (F := Ideal) Z C (ix2 n k) = total (rowOf Z n) C := by
  rw [val_main_v23_apply, val_main_v22_apply, val_main_v21_apply]
  show Ideal.ofBits .f32 0x00000000#32 + _ = _
  rw [Ideal.ofBits_zero_f32, zero_add]
  refine Finset.sum_congr rfl fun j _ => ?_
  have e : idx_main_v21 (idx_main_v22 (idx_main_v23 (ix2 n k))) j = ix2 n j :=
    funext fun a => by match a with | ⟨0, _⟩ => rfl | ⟨1, _⟩ => rfl
  rw [e]
  exact powered_apply Z C n j

/-- THE REFERENCE'S RESULT is the assignment array of the data array. -/
theorem result_eq : val_main_v24 (F := Ideal) Z C = assignAll Z C := by
  funext i
  obtain ⟨n, k, rfl⟩ : ∃ (n : Fin 131072) (k : Fin 1024), i = ix2 n k := ⟨i 0, i 1, eq_ix2 i⟩
  rw [val_main_v24_apply, powered_apply, total_apply]
  rfl

end Cert.SoftAssign.Reference

end
-- ==== Proof.Layout.lean ====
/-
  A vector of 1024 entries laid out as a column or as a row, and spread over a 1024 × 1024 square.

  A row-wise sum kept as a column (`keepdims`) and then subtracted from, or divided into, a square array is
  four layout steps: the vector of sums becomes a 1024 × 1 column and the column is repeated along the second
  axis; a vector of per-column values becomes a 1 × 1024 row and the row is repeated along the first axis. Read
  at an entry (p, q) of the square, the first chain gives the vector's entry p and the second its entry q. A
  recast keeps the row-major position, and the position of (p, 0) in a column, or of (0, q) in a row, is p,
  or q; a repeat reads the operand at coordinate 0 along its axis of extent 1.
-/
import Idealize.ShloMosaic.Lib.Pipeline.Value
import Idealize.ShloMosaic.Lib.ValueIdx

noncomputable section

namespace Cert.SoftAssign.Layout

open Idealize.ShloMosaic Idealize.ShloMosaic.ValueIdx

variable {α : Type}

abbrev Svec : Shape := ⟨1, ![1024]⟩
abbrev Scol : Shape := ⟨2, ![1024, 1]⟩
abbrev Srow : Shape := ⟨2, ![1, 1024]⟩
abbrev Ssq : Shape := ⟨2, ![1024, 1024]⟩

/-- A vector recast as a column: the column's entry (p, 0) is the vector's entry p. -/
theorem column_apply (v : Svec.Idx → α) (h : Svec.ShapeCasts Scol) (p : Fin 1024) (z : Fin 1) :
    shapeCast Scol v h (ix2 p z) = v (ix1 p) := by
  refine shapeCast_apply v h (ix2 p z) (ix1 p) ?_
  rw [Shape.rowMajor_val_one, Shape.rowMajor_val_two]
  show p.val = p.val * 1 + z.val
  have := z.isLt
  omega

/-- A vector recast as a row: the row's entry (0, q) is the vector's entry q. -/
theorem row_apply (v : Svec.Idx → α) (h : Svec.ShapeCasts Srow) (z : Fin 1) (q : Fin 1024) :
    shapeCast Srow v h (ix2 z q) = v (ix1 q) := by
  refine shapeCast_apply v h (ix2 z q) (ix1 q) ?_
  rw [Shape.rowMajor_val_one, Shape.rowMajor_val_two]
  show q.val = z.val * 1024 + q.val
  have := z.isLt
  omega

/-- A column repeated along the second axis: entry (p, q) of the square is the column's entry (p, 0). -/
theorem spread_column_apply (v : Scol.Idx → α) (h : Scol.Broadcasts Ssq) (p q : Fin 1024) :
    broadcastTo Ssq v h (ix2 p q) = v (ix2 p (0 : Fin 1)) := by
  refine broadcastTo_apply v h (ix2 p q) (ix2 p (0 : Fin 1)) (fun a => ?_)
  match a with
  | ⟨0, _⟩ => show p.val = if (1024 : Nat) = 1 then 0 else p.val; rw [if_neg (by decide)]
  | ⟨1, _⟩ => show (0 : Nat) = if (1 : Nat) = 1 then 0 else q.val; rw [if_pos rfl]

/-- A row repeated along the first axis: entry (p, q) of the square is the row's entry (0, q). -/
theorem spread_row_apply (v : Srow.Idx → α) (h : Srow.Broadcasts Ssq) (p q : Fin 1024) :
    broadcastTo Ssq v h (ix2 p q) = v (ix2 (0 : Fin 1) q) := by
  refine broadcastTo_apply v h (ix2 p q) (ix2 (0 : Fin 1) q) (fun a => ?_)
  match a with
  | ⟨0, _⟩ => show (0 : Nat) = if (1 : Nat) = 1 then 0 else p.val; rw [if_pos rfl]
  | ⟨1, _⟩ => show q.val = if (1024 : Nat) = 1 then 0 else q.val; rw [if_neg (by decide)]

/-- The two steps together: a vector kept as a column and repeated gives, at (p, q), its entry p. -/
theorem column_spread (v : Svec.Idx → α) (h : Svec.ShapeCasts Scol) (h' : Scol.Broadcasts Ssq) (p q : Fin 1024) :
    broadcastTo Ssq (shapeCast Scol v h) h' (ix2 p q) = v (ix1 p) :=
  (spread_column_apply _ h' p q).trans (column_apply v h p 0)

/-- A vector kept as a row and repeated gives, at (p, q), its entry q. -/
theorem row_spread (v : Svec.Idx → α) (h : Svec.ShapeCasts Srow) (h' : Srow.Broadcasts Ssq) (p q : Fin 1024) :
    broadcastTo Ssq (shapeCast Srow v h) h' (ix2 p q) = v (ix1 q) :=
  (spread_row_apply _ h' p q).trans (row_apply v h 0 q)

end Cert.SoftAssign.Layout

end
-- ==== Proof.Body.lean ====
/-
  What the kernel body computes from one block of 1024 data rows and the centroid array, entry by entry.

  The body's stored value is, in order: the matrix product of the block with the centroids contracted over the 512
  entries (into a zero accumulator, the operands narrowed to a shorter format first, which is the identity on
  extended reals); each row's sum of squares, kept as a column and repeated along the columns; each centroid's sum
  of squares, kept as a row and repeated along the rows; the expanded squared distance; the Student-t weight
  1 / (1 + dist / 1); each row's sum of weights, kept as a column and repeated; and the quotient. Read at entry
  (p, q) this is the specification's `assign` of the block's row p and centroid q: the matrix product at (p, q) is
  Σ_d x_{p,d} · c_{q,d} (its contraction index is one coordinate), a sum along the second axis at p is the sum over
  that axis's coordinate, and the layout steps pick entry p of a column and entry q of a row. No power appears here.
-/
import proofs.«155967_j49924699848825_1_alg».proof.Proof.Gen.KernelIdeal.Skeleton
import proofs.«155967_j49924699848825_1_alg».proof.Proof.Spec
import proofs.«155967_j49924699848825_1_alg».proof.Proof.Layout
import Idealize.ShloMosaic.PureOps.Ideal.Laws
import Idealize.ShloMosaic.Lib.ValueIdx

noncomputable section

open scoped BigOperators

namespace Cert.SoftAssign.Body

open Idealize.ShloMosaic Idealize.ShloMosaic.ValueIdx
open Cert.KernelIdeal Cert.KernelIdeal.Gen Cert.SoftAssign

variable (x0 x1 : FVec Ideal S1024x512 .f32)

/-! ## The body's stages -/

/-- The block times the centroids, contracted over the 512 entries. -/
def crossV : FVec Ideal S1024x1024 .f32 :=
  matmul dot_S1024x512_S1024x512_S1024x1024_1_1_0_0_n_n none (truncf .bf16 x0 bitsLt_bf16_f32) (truncf .bf16 x1 bitsLt_bf16_f32)
    (constant S1024x1024 .f32 0x00000000#32)

/-- Sums of squares along the second axis, as a vector of 1024. -/
def sqSums (x : FVec Ideal S1024x512 .f32) : FVec Ideal S1024 .f32 :=
  multiReduction .add [1] S1024 (mulf x x) 0x00000000#32 reduces_S1024x512_S1024 (.inl rfl) rfl

/-- Each data row's sum of squares, repeated along the columns. -/
def rowSqV : FVec Ideal S1024x1024 .f32 :=
  broadcastTo S1024x1024 (shapeCast S1024x1 (sqSums x0) shapeCasts_S1024_S1024x1) broadcasts_S1024x1_S1024x1024

/-- Each centroid's sum of squares, repeated along the rows. -/
def cenSqV : FVec Ideal S1024x1024 .f32 :=
  broadcastTo S1024x1024 (shapeCast S1x1024 (sqSums x1) shapeCasts_S1024_S1x1024) broadcasts_S1x1024_S1024x1024

/-- The expanded squared distances. -/
def distV : FVec Ideal S1024x1024 .f32 :=
  addf (subf (rowSqV x0) (mulf (broadcast S1024x1024 (Scalar.ofBits .f32 0x40000000#32)) (crossV x0 x1))) (cenSqV x1)

/-- The Student-t weights. -/
def weightV : FVec Ideal S1024x1024 .f32 :=
  divf (broadcast S1024x1024 (Scalar.ofBits .f32 0x3F800000#32))
    (addf (broadcast S1024x1024 (Scalar.ofBits .f32 0x3F800000#32))
      (divf (distV x0 x1) (broadcast S1024x1024 (Scalar.ofBits .f32 0x3F800000#32))))

/-- Each row's sum of weights, repeated along the columns. -/
def totalV : FVec Ideal S1024x1024 .f32 :=
  broadcastTo S1024x1024
    (shapeCast S1024x1 (multiReduction .add [1] S1024 (weightV x0 x1) 0x00000000#32 reduces_S1024x1024_S1024 (.inl rfl) rfl)
      shapeCasts_S1024_S1024x1)
    broadcasts_S1024x1_S1024x1024

/-- The body's stored value is the weights over the row totals. -/
theorem payload_eq : k0_pay1 (F := Ideal) x0 x1 = divf (weightV x0 x1) (totalV x0 x1) := rfl

/-! ## Each stage at an entry -/

/-- A sum of squares along the second axis, at row `r`. -/
theorem sqSums_apply (x : FVec Ideal S1024x512 .f32) (r : Fin 1024) : sqSums x (ix1 r) = sqNorm (rowOf x r) := by
  unfold sqSums
  refine (Ideal.multiReduction_add_single (mulf x x) 0x00000000#32 reduces_S1024x512_S1024 (.inl rfl) rfl (ix1 r)).trans ?_
  refine Finset.sum_congr rfl fun d _ => ?_
  have e : reduces_S1024x512_S1024.lift (ix1 r) d = ix2 r d :=
    funext fun a => Fin.ext (by match a with | ⟨0, _⟩ => rfl | ⟨1, _⟩ => rfl)
  rw [e]
  rfl

theorem rowSqV_apply (p q : Fin 1024) : rowSqV x0 (ix2 p q) = sqNorm (rowOf x0 p) :=
  (Layout.column_spread (sqSums x0) shapeCasts_S1024_S1024x1 broadcasts_S1024x1_S1024x1024 p q).trans (sqSums_apply x0 p)

theorem cenSqV_apply (p q : Fin 1024) : cenSqV x1 (ix2 p q) = sqNorm (rowOf x1 q) :=
  (Layout.row_spread (sqSums x1) shapeCasts_S1024_S1x1024 broadcasts_S1x1024_S1024x1024 p q).trans (sqSums_apply x1 q)

/-- The left operand's index at output (p, q) and contraction coordinate: row p. -/
theorem lhs_row (i : S1024x1024.Idx) (c : dot_S1024x512_S1024x512_S1024x1024_1_1_0_0_n_n.contr.Idx) :
    (dot_S1024x512_S1024x512_S1024x1024_1_1_0_0_n_n.lhsIdx i c 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

/-- The right operand's index at output (p, q): row q (the product contracts the LAST axis of both operands). -/
theorem rhs_row (i : S1024x1024.Idx) (c : dot_S1024x512_S1024x512_S1024x1024_1_1_0_0_n_n.contr.Idx) :
    (dot_S1024x512_S1024x512_S1024x1024_1_1_0_0_n_n.rhsIdx i c 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

/-- The matrix product at (p, q): Σ_d x_{p,d} · c_{q,d}. -/
theorem crossV_apply (p q : Fin 1024) : crossV x0 x1 (ix2 p q) = cross (rowOf x0 p) x1 q := by
  unfold crossV
  refine (Ideal.matmul_constant_zero_apply dot_S1024x512_S1024x512_S1024x1024_1_1_0_0_n_n none _ _ (ix2 p q)).trans ?_
  rw [← Equiv.sum_comp (contrEquiv1 dot_S1024x512_S1024x512_S1024x1024_1_1_0_0_n_n 512 rfl rfl).symm]
  refine Finset.sum_congr rfl fun d _ => ?_
  have hd := contrEquiv1_symm_val dot_S1024x512_S1024x512_S1024x1024_1_1_0_0_n_n 512 rfl rfl d
  have el : dot_S1024x512_S1024x512_S1024x1024_1_1_0_0_n_n.lhsIdx (ix2 p q)
      ((contrEquiv1 dot_S1024x512_S1024x512_S1024x1024_1_1_0_0_n_n 512 rfl rfl).symm d) = ix2 p d :=
    funext fun a => Fin.ext (by
      match a with
      | ⟨0, _⟩ => exact lhs_row _ _
      | ⟨1, _⟩ => exact (dot_S1024x512_S1024x512_S1024x1024_1_1_0_0_n_n.lhsIdx_val_of_single rfl _ _).trans hd)
  have er : dot_S1024x512_S1024x512_S1024x1024_1_1_0_0_n_n.rhsIdx (ix2 p q)
      ((contrEquiv1 dot_S1024x512_S1024x512_S1024x1024_1_1_0_0_n_n 512 rfl rfl).symm d) = ix2 q d :=
    funext fun a => Fin.ext (by
      match a with
      | ⟨0, _⟩ => exact rhs_row _ _
      | ⟨1, _⟩ => exact (dot_S1024x512_S1024x512_S1024x1024_1_1_0_0_n_n.rhsIdx_val_of_single rfl _ _).trans hd)
  rw [el, er]
  rfl

theorem distV_apply (p q : Fin 1024) : distV x0 x1 (ix2 p q) = dist (rowOf x0 p) x1 q := by
  show (rowSqV x0 (ix2 p q) - Ideal.ofBits .f32 0x40000000#32 * crossV x0 x1 (ix2 p q)) + cenSqV x1 (ix2 p q) = _
  rw [rowSqV_apply, crossV_apply, cenSqV_apply]
  rfl

theorem weightV_apply (p q : Fin 1024) : weightV x0 x1 (ix2 p q) = weight (rowOf x0 p) x1 q := by
  show Ideal.div (Ideal.ofBits .f32 0x3F800000#32)
      (Ideal.ofBits .f32 0x3F800000#32 + Ideal.div (distV x0 x1 (ix2 p q)) (Ideal.ofBits .f32 0x3F800000#32)) = _
  rw [distV_apply]
  rfl

theorem totalV_apply (p q : Fin 1024) : totalV x0 x1 (ix2 p q) = total (rowOf x0 p) x1 := by
  unfold totalV
  refine (Layout.column_spread _ shapeCasts_S1024_S1024x1 broadcasts_S1024x1_S1024x1024 p q).trans ?_
  refine (Ideal.multiReduction_add_single (weightV x0 x1) 0x00000000#32 reduces_S1024x1024_S1024 (.inl rfl) rfl (ix1 p)).trans ?_
  refine Finset.sum_congr rfl fun j _ => ?_
  have e : reduces_S1024x1024_S1024.lift (ix1 p) j = ix2 p j :=
    funext fun a => Fin.ext (by match a with | ⟨0, _⟩ => rfl | ⟨1, _⟩ => rfl)
  rw [e]
  exact weightV_apply x0 x1 p j

/-- THE BODY'S STORED VALUE at (p, q) is the assignment of the block's row p to centroid q. -/
theorem payload_apply (p q : Fin 1024) : k0_pay1 (F := Ideal) x0 x1 (ix2 p q) = assign (rowOf x0 p) x1 q := by
  rw [payload_eq]
  show Ideal.div (weightV x0 x1 (ix2 p q)) (totalV x0 x1 (ix2 p q)) = _
  rw [weightV_apply, totalV_apply]
  rfl

/-- The same as one array: the body's stored value is the assignment array of the block. -/
theorem payload_is_assignAll : k0_pay1 (F := Ideal) x0 x1 = assignAll x0 x1 := by
  funext i
  obtain ⟨p, q, rfl⟩ : ∃ (p q : Fin 1024), i = ix2 p q := ⟨i 0, i 1, eq_ix2 i⟩
  exact payload_apply x0 x1 p q

end Cert.SoftAssign.Body

end
-- ==== Proof.Blocks.lean ====
/-
  From blocks to the whole array: after the run the kernel's result array IS the assignment array.

  The grid has 128 points. At point `t` the pipeline hands the body rows 1024·t … 1024·t + 1023 of the data array
  (block (t, 0) of 1024 × 512) and the whole centroid array (always block (0, 0)), and writes the body's 1024 × 1024
  result back as block (t, 0) of the result array. The body's result is the assignment array of its block of rows
  (`Body.payload_is_assignAll`), and rows do not interact (`assignAll_block`), so what point `t` writes back is
  block `t` of the assignment array of the whole data array. Row `r` of the result lies in the block of point
  r / 1024, so the 128 blocks cover the array, and the array ends holding that function everywhere.
-/
import proofs.«155967_j49924699848825_1_alg».proof.Proof.Gen.KernelIdeal.Value
import proofs.«155967_j49924699848825_1_alg».proof.Proof.Body

noncomputable section

namespace Cert.SoftAssign.Blocks

open Idealize.ShloMosaic Idealize.ShloMosaic.TcCoe Idealize.ShloMosaic.ValueIdx Idealize.SL.Sem
open Idealize.ShloMosaic.Pipeline (Dat)
open Cert.KernelIdeal Cert.KernelIdeal.Gen Cert.SoftAssign

variable (m : (ℓ : Loc nD τ sig) → Buf (Elt Ideal) ℓ) (ρ : Dev nD → PrngReg)

theorem origin : (![0, 0] : Fin 2 → Nat) = fun _ => 0 := funext fun a => by fin_cases a <;> rfl

/-- The printed index maps over the grid: the data window and the result window sit at block (t, 0), the centroid
    window at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

/-- WHAT POINT `t` WRITES BACK is block `t` of the assignment array of the argument arrays. -/
theorem flushed_eq (c : Dev nD) (t : Fin cfg0.N) :
    (dats m 0 c).flushed 2 t
      = ((cfg0.win 2).blk t).view.read (Elt Ideal) (assignAll (V m c main_arg0) (V m c main_arg1)) := by
  rw [Cert.KernelIdeal.Value.flushed2]
  unfold out0_2
  rw [View.canon_unit_zero origin]
  simp only [View.ld_unit_zero (S := S1024x512) origin]
  rw [Body.payload_is_assignAll]
  obtain ⟨e0, e1, e2, e3, e4, e5⟩ := block_indices t
  funext j
  show assignAll (iblk m c 0 t) (iblk m c 1 t) j
      = assignAll (V m c main_arg0) (V m c main_arg1) (((cfg0.win 2).blk t).view.emb j)
  refine assignAll_block _ _ _ _ j _ (fun d => ?_) (fun k d => ?_) ?_
  · -- the block's row at `j` is the data array's row 1024·t + (j 0)
    show V m c main_arg0 (((cfg0.win 0).blk t).view.emb (ix2 (⟨(j 0).val, idx2_lt0 j⟩ : Fin 1024) d)) = _
    refine congrArg (V m c main_arg0) (funext fun a => Fin.ext ?_)
    match a with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 512 + 1 * d.val = d.val
      omega
  · -- the centroid window's block is the whole centroid array
    show V m c main_arg1 (((cfg0.win 1).blk t).view.emb (ix2 k d)) = _
    refine congrArg (V m c main_arg1) (funext fun a => Fin.ext ?_)
    match a with
    | ⟨0, _⟩ =>
      show win0_1.index t (0 : Fin 2) * 1024 + 1 * k.val = k.val
      omega
    | ⟨1, _⟩ =>
      show win0_1.index t (1 : Fin 2) * 512 + 1 * d.val = d.val
      omega
  · -- same column
    show (j 1).val = win0_2.index t (1 : Fin 2) * 1024 + 1 * (j 1).val
    omega

/-- An index of the result array is in point `t`'s block iff each coordinate is in the block's range on its axis. -/
theorem mem_blk (t : Fin cfg0.N) (i : S131072x1024.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- THE BLOCKS COVER THE ARRAY: row `r` is in the block of point r / 1024. -/
theorem cover (i : S131072x1024.Idx) :
    ∃ t : Fin cfg0.N, (cfg0.win 2).flush t = true ∧ i ∈ ((cfg0.win 2).blk t).view.set := by
  have hi0 : (i 0).val < 131072 := idx2_lt0 i
  have hi1 : (i 1).val < 1024 := idx2_lt1 i
  have hN : grid0.N = 128 := N_0
  have ht : (i 0).val / 1024 < cfg0.N := by show (i 0).val / 1024 < grid0.N; rw [hN]; omega
  obtain ⟨-, -, -, -, e4, e5⟩ := block_indices ⟨(i 0).val / 1024, ht⟩
  have e4' : win0_2.index ⟨(i 0).val / 1024, ht⟩ (0 : Fin 2) = (i 0).val / 1024 := e4
  refine ⟨⟨(i 0).val / 1024, ht⟩, flush0_2 _, ?_⟩
  rw [mem_blk]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    omega
  | ⟨1, _⟩ =>
    show win0_2.index ⟨(i 0).val / 1024, ht⟩ (1 : Fin 2) * 1024 ≤ (i 1).val
      ∧ (i 1).val < win0_2.index ⟨(i 0).val / 1024, ht⟩ (1 : Fin 2) * 1024 + 1024
    omega

/-- THE RESULT ARRAY after the run is the assignment array of the argument arrays. -/
theorem final (c : Dev nD) :
    (dats m 0 c).arrAt 2 cfg0.N
      = assignAll (m ((c : Thread nD τ).loc main_arg0)) (m ((c : Thread nD τ).loc main_arg1)) :=
  (dats m 0 c).arrAt_eq_of_cover 2 (assignAll (V m c main_arg0) (V m c main_arg1)) (fun t _ => flushed_eq m c t) cover

/-- THE KERNEL'S RUN: every weakly fair execution ends with the result array at the assignment array of the
    arguments, and the arguments unchanged. -/
theorem run : θ_run defs (onTc (τ := τ) (main (F := Ideal))) ⟨m, fun _ => 0, ρ⟩ fun r => ∀ c : Dev nD,
      r.2.mem ((c : Thread nD τ).loc main_v0)
        = assignAll (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.SoftAssign.Blocks

end
-- ==== Proof.lean ====
/-
  Soft cluster assignment (a Student-t kernel of squared distances, each row normalised): the tiled kernel against
  its array-level reference, on the extended reals.

  Both programs form, for data row n and centroid k,
      dist    = (Σ_d z_{n,d}² − 2 · Σ_d z_{n,d} · c_{k,d}) + Σ_d c_{k,d}²
      weight  = 1 / (1 + dist / 1)
      result  = weight / Σ_j weight_j
  with the same literals and the same order of operations. They differ in two ways. The kernel works on 128 blocks
  of 1024 rows, with the matrix product and the sums taken block by block; since a row's result depends on that row
  and the centroids only, block `t` of the whole result is the result of block `t` of the data, and the blocks tile
  the array (`Blocks.run`). And the reference raises the weight to the power (1 + 1)/2 = 1 where the kernel, knowing
  the exponent, omits the power; on the extended reals a power with exponent 1 is the identity, also at the two
  infinities (`SoftAssign.pow_one`), so the two results are one function of the arguments (`Reference.result_eq`).
  Nothing in this argument cancels or distributes, so the finiteness of the inputs is never used.

  The three frame claims are the generated frame runs (the reference's is its run with the result dropped), and the
  idealization rewrote no operation, so its claim is `True`.
-/
import proofs.«155967_j49924699848825_1_alg».proof.Defs
import proofs.«155967_j49924699848825_1_alg».proof.Proof.Gen.Kernel
import proofs.«155967_j49924699848825_1_alg».proof.Proof.Gen.Kernel.Skeleton
import proofs.«155967_j49924699848825_1_alg».proof.Proof.Gen.Kernel.Launch
import proofs.«155967_j49924699848825_1_alg».proof.Proof.Gen.Kernel.Points
import proofs.«155967_j49924699848825_1_alg».proof.Proof.Gen.Kernel.Frame
import proofs.«155967_j49924699848825_1_alg».proof.Proof.Gen.KernelIdeal
import proofs.«155967_j49924699848825_1_alg».proof.Proof.Gen.KernelIdeal.Skeleton
import proofs.«155967_j49924699848825_1_alg».proof.Proof.Gen.KernelIdeal.Launch
import proofs.«155967_j49924699848825_1_alg».proof.Proof.Gen.KernelIdeal.Points
import proofs.«155967_j49924699848825_1_alg».proof.Proof.Gen.KernelIdeal.Frame
import proofs.«155967_j49924699848825_1_alg».proof.Proof.Gen.ReferenceIdeal
import proofs.«155967_j49924699848825_1_alg».proof.Proof.Gen.Pre_finite_inputs
import proofs.«155967_j49924699848825_1_alg».proof.Proof.Gen.KernelIdeal.Value
import proofs.«155967_j49924699848825_1_alg».proof.Proof.Gen.ReferenceIdeal.Run
import proofs.«155967_j49924699848825_1_alg».proof.Proof.Gen.ReferenceIdeal.Read
import proofs.«155967_j49924699848825_1_alg».proof.Proof.Reference
import proofs.«155967_j49924699848825_1_alg».proof.Proof.Blocks
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten in reading the kernel on the extended reals. -/
theorem preserves : Cert.preserves_Kernel_KernelIdeal := trivial

/-- From memories that agree on the data and the centroids, the kernel's result array and the reference's both end
    at the assignment array of those arguments. -/
theorem algebraic : Cert.algebraic_KernelIdeal_ReferenceIdeal := by
  intro m ρ m' ρ' _ hagree
  refine ⟨_, Cert.SoftAssign.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.SoftAssign.Reference.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
